-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S576x4096 : Shape := ⟨2, ![576, 4096]⟩
abbrev S576x256 : Shape := ⟨2, ![576, 256]⟩
abbrev S4608x256 : Shape := ⟨2, ![4608, 256]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S4096x256, .f32⟩
  | .local _ .vmem, ⟨0, _⟩ => ⟨S576x4096, .f32⟩
  | .local _ .vmem, ⟨1, _⟩ => ⟨S576x4096, .f32⟩
  | .local _ .vmem, ⟨2, _⟩ => ⟨S4096x256, .f32⟩
  | .local _ .vmem, ⟨3, _⟩ => ⟨S256x256, .f32⟩
  | .local _ .vmem, ⟨4, _⟩ => ⟨S1x256, .f32⟩
  | .local _ .vmem, ⟨5, _⟩ => ⟨S576x256, .f32⟩
  | .local _ .vmem, ⟨6, _⟩ => ⟨S576x256, .f32⟩
  | .local _ .vmem, ⟨7, _⟩ => ⟨S4608x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c576_i32 : BitVec 32 := 576#32
  let v6 : BitVec 32 := Scalar.muli arg0 c576_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S576x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S4608x256_S4096x256_0_0 : ∀ a, (![0, 0] : Fin 2 → Nat) a + S4096x256.size a ≤ S4608x256.size a
  shapeCasts_S4096x256_S4096x256 : S4096x256.ShapeCasts S4096x256
  inb_S4608x256_S512x256_4096_0 : ∀ a, (![4096, 0] : Fin 2 → Nat) a + S512x256.size a ≤ S4608x256.size a
  h_S512x256 : 0 < S512x256.numel
  shapeCasts_S512x256_S512x256 : S512x256.ShapeCasts S512x256
  inb_S576x4096_S576x4096_0_0 : ∀ a, (![0, 0] : Fin 2 → Nat) a + S576x4096.size a ≤ S576x4096.size a
  h_S576x4096 : 0 < S576x4096.numel
  h_S576x256 : 0 < S576x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S576x256 : S1x256.Broadcasts S576x256
  inb_S576x256_S576x256_0_0 : ∀ a, (![0, 0] : Fin 2 → Nat) a + S576x256.size a ≤ S576x256.size a
  dot_S576x4096_S4096x256_S576x256_1_0_0_1_n_n_wf : DotDims.WF S576x4096 S4096x256 S576x256 [1] [0] [0] [1] [] []
  dot_S576x256_S256x256_S576x256_1_1_0_0_n_n_wf : DotDims.WF S576x256 S256x256 S576x256 [1] [1] [0] [0] [] []
  hrank0 : 0 < grid0.rank
  k0_off1_inb : ∀ i : grid0.Coords, ∀ a, (k0_off1 i) a + S576x256.size a ≤ S4608x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S576x4096.size a < S4096x4096.size a
  hwx0_0 : ∀ i : grid0.Coords, EltTy.bits .f32 = 32 ∨ (Rect.unit (s := S4096x4096) (fun a => cc0_transform_0 i a * S576x4096.size a) (fun a => (Pipeline.Clip.of (cc0_transform_0 i a) (S576x4096.size a) (S4096x4096.size a)).extent (S576x4096.size a)) fun a => Pipeline.Clip.inb (Pipeline.Clip.ok_of (hstart0_0 i a))).WholeWords (EltTy.packing .f32)
  hwxs0_0 : ∀ i : grid0.Coords, EltTy.bits .f32 = 32 ∨ (Rect.unit (s := S576x4096) (fun _ => 0) (fun a => (Pipeline.Clip.of (cc0_transform_0 i a) (S576x4096.size a) (S4096x4096.size a)).extent (S576x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S576x256.size a < S4096x256.size a
  hwx0_4 : ∀ i : grid0.Coords, EltTy.bits .f32 = 32 ∨ (Rect.unit (s := S4096x256) (fun a => cc0_transform_4 i a * S576x256.size a) (fun a => (Pipeline.Clip.of (cc0_transform_4 i a) (S576x256.size a) (S4096x256.size a)).extent (S576x256.size a)) fun a => Pipeline.Clip.inb (Pipeline.Clip.ok_of (hstart0_4 i a))).WholeWords (EltTy.packing .f32)
  hwxs0_4 : ∀ i : grid0.Coords, EltTy.bits .f32 = 32 ∨ (Rect.unit (s := S576x256) (fun _ => 0) (fun a => (Pipeline.Clip.of (cc0_transform_4 i a) (S576x256.size a) (S4096x256.size a)).extent (S576x256.size a)) fun a => (Nat.zero_add _).trans_le (Pipeline.Clip.extent_le (Pipeline.Clip.ok_of (hstart0_4 i a)))).WholeWords (EltTy.packing .f32)

variable [Facts₀]

def dot_S576x4096_S4096x256_S576x256_1_0_0_1_n_n : DotDims S576x4096 S4096x256 S576x256 where
  lhsContracting := [1]
  rhsContracting := [0]
  lhsNonContracting := [0]
  rhsNonContracting := [1]
  lhsBatch := []
  rhsBatch := []
  wf := dot_S576x4096_S4096x256_S576x256_1_0_0_1_n_n_wf
def dot_S576x256_S256x256_S576x256_1_1_0_0_n_n : DotDims S576x256 S256x256 S576x256 where
  lhsContracting := [1]
  rhsContracting := [1]
  lhsNonContracting := [0]
  rhsNonContracting := [0]
  lhsBatch := []
  rhsBatch := []
  wf := dot_S576x256_S256x256_S576x256_1_1_0_0_n_n_wf

abbrev win0_0 : Pipeline.Window sig grid0 :=
  Pipeline.Window.ofSpecClip (Memref.whole main_arg1) S576x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S576x256.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S4096x256, .f32⟩
  | .hbm, ⟨5, _⟩ => ⟨S4096x256, .f32⟩
  | .hbm, ⟨6, _⟩ => ⟨S256x256, .f32⟩
  | .hbm, ⟨7, _⟩ => ⟨S4096x256, .f32⟩
  | .hbm, ⟨8, _⟩ => ⟨S1x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .i1⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.WordRun.lean ====
/-
  The kernel body run once per case of its one branch.

  The body takes the branch exactly at grid point 0: there it copies the second operand (4096 rows of 256) into rows
  0..4095 of the 4608-row scratch and zeros rows 4096..4607, so that every later point can read "its" 576 rows of the
  operand from the scratch even where the last block overhangs the array. At every point it then forms
  (rows · operand2 + scratch rows) · operand3ᵀ + bias, applies the leaky rectifier, and stores the 576×256 result.
  Each case is run symbolically on arbitrary whole staging buffers; what the stores leave is then read back as a
  function: the output buffer holds the body's arithmetic of the buffers' contents, the scratch the padded copy.
-/
import proofs.«107469_g10445360464162_week1_w2_143_17_alg».proof.Proof.Gen.Kernel.Frame
import proofs.«107469_g10445360464162_week1_w2_143_17_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch is taken exactly when the grid coordinate is zero: the condition as the kernel computes it. -/
abbrev cond0 (i : grid0.Coords) : Prop := (Scalar.cmpi .ne (Scalar.extui (Scalar.cmpi .eq (BitVec.ofNat 32 (i 0).val) 0#32)) 0#32) = 1#1

/-- Decided over the eight grid points: the branch is taken at point 0 only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at a point after the first: the branch is skipped, the padded copy in the scratch is read and left as it
    was, the four input buffers are left as they were, and the output buffer ends with the pieces the run finds. -/
noncomputable def runLater (c : Dev nD) (i : grid0.Coords)
    (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole)
    (hc0 : ¬cond0 i) (x1 : Vec F S576x4096 .f32) (x2 : Vec F S4096x256 .f32) (x3 : Vec F S256x256 .f32) (x4 : Vec F S1x256 .f32) (xs : Vec F S4608x256 .f32) :
    { L5 : List (View.Piece (Elt F) S576x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc0_body i arg1 harg1 arg2 harg2 arg3 harg3 arg4 harg4 arg5 harg5 arg6 harg6) K } := by
  refine ⟨?_, fun E K => ?run⟩
  case run =>
    simp only [cc0_body_eq_skeleton]; unfold cc0_body_skel
    unfold owns
    iintro ⟨⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf1; obtain rfl := harg2.eq_unread hf2; obtain rfl := harg3.eq_unread hf3
    obtain rfl := harg4.eq_unread hf4; obtain rfl := harg6.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact HS

set_option maxHeartbeats 1000000 in
/-- The body at the first point: the branch is taken, the scratch (holding anything) is stored into twice, and both
    the scratch and the output buffer end with the pieces the run finds; the four input buffers are left as they were. -/
noncomputable def runFirst (c : Dev nD) (i : grid0.Coords)
    (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole)
    (hc0 : cond0 i) (x1 : Vec F S576x4096 .f32) (x2 : Vec F S4096x256 .f32) (x3 : Vec F S256x256 .f32) (x4 : Vec F S1x256 .f32) :
    Σ' (L5 : List (View.Piece (Elt F) S576x256 .f32)), { LS : List (View.Piece (Elt F) S4608x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0_body i arg1 harg1 arg2 harg2 arg3 harg3 arg4 harg4 arg5 harg5 arg6 harg6) K } := by
  refine ⟨?_, ?_, fun E K => ?run⟩
  case run =>
    simp only [cc0_body_eq_skeleton]; unfold cc0_body_skel
    unfold owns
    iintro ⟨⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf1; obtain rfl := harg2.eq_unread hf2; obtain rfl := harg3.eq_unread hf3
    obtain rfl := harg4.eq_unread hf4
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

/-! ## What the runs leave, as functions -/

theorem zero_offsets : (![0, 0] : Fin 2 → Nat) = fun _ => 0 := funext fun a => by fin_cases a <;> rfl

/-- The rows of the scratch the body adds at grid coordinate `i`: rows `[576 i, 576 i + 576)`. -/
def scratchRows (i : grid0.Coords) (S : Vec F S4608x256 .f32) : Vec F S576x256 .f32 :=
  View.ld S (Rect.unit (s := S4608x256) (k0_off1 i) S576x256.size (Facts₀.k0_off1_inb i))

/-- The padded copy the first point builds in the scratch: the 4096 rows of `e` followed by 512 rows of zeros
    (as the two stores leave it: the later store first). -/
def padded (e : Vec F S4096x256 .f32) : Vec F S4608x256 .f32 :=
  View.canon [(⟨Rect.unit (s := S4608x256) ![4096, 0] S512x256.size Facts₀.inb_S4608x256_S512x256_4096_0, k0_pay2 (F := F)⟩ : View.Piece (Elt F) S4608x256 .f32),
    ⟨Rect.unit (s := S4608x256) ![0, 0] S4096x256.size Facts₀.inb_S4608x256_S4096x256_0_0, k0_pay1 e⟩]

/-- After a later point the output buffer holds the body's result of the four input buffers and the scratch's rows. -/
theorem runLater_out (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : ¬cond0 i) (x1 : Vec F S576x4096 .f32) (x2 : Vec F S4096x256 .f32) (x3 : Vec F S256x256 .f32) (x4 : Vec F S1x256 .f32) (xs : Vec F S4608x256 .f32)
    (f : arg5.view.ty.Contents (Elt F)) :
    arg5.view.read (Elt F) (arg5.view.writes (Elt F) f (runLater c i arg1 harg1 arg2 harg2 arg3 harg3 arg4 harg4 arg5 harg5 arg6 harg6 hc0 x1 x2 x3 x4 xs).1)
      = k0_pay3 x1 x2 (scratchRows i xs) x3 x4 := by
  unfold runLater; dsimp only
  rw [View.read_writes_eq_canon _ _ _ (fun y => ⟨_, List.mem_singleton_self _, View.mem_set_unit_zero zero_offsets Facts₀.inb_S576x256_S576x256_0_0 y⟩),
    View.canon_unit_zero zero_offsets]
  simp only [View.readAt_eq_ld, harg1.read_unread, harg2.read_unread, harg3.read_unread, harg4.read_unread, harg6.read_unread,
    View.ld_unit_zero (S := S576x4096) zero_offsets, View.ld_unit_zero (S := S4096x256) zero_offsets,
    View.ld_unit_zero (S := S256x256) zero_offsets, View.ld_unit_zero (S := S1x256) zero_offsets]
  rfl

/-- The first point's two stores into the scratch cover it: 4096 rows and 512 rows, eight and one blocks of 512 rows. -/
theorem coverFirst (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : cond0 i) (x1 : Vec F S576x4096 .f32) (x2 : Vec F S4096x256 .f32) (x3 : Vec F S256x256 .f32) (x4 : Vec F S1x256 .f32) (y : S4608x256.Idx) :
    ∃ pc ∈ (runFirst c i arg1 harg1 arg2 harg2 arg3 harg3 arg4 harg4 arg5 harg5 arg6 harg6 hc0 x1 x2 x3 x4).2.1, y ∈ pc.1.set :=
  View.cover_of_tiledBy (runFirst c i arg1 harg1 arg2 harg2 arg3 harg3 arg4 harg4 arg5 harg5 arg6 harg6 hc0 x1 x2 x3 x4).2.1 S512x256.size (by sl_kernel_rfl) y

/-- After the first point the scratch holds the padded copy of the second input buffer. -/
theorem runFirst_scratch (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : cond0 i) (x1 : Vec F S576x4096 .f32) (x2 : Vec F S4096x256 .f32) (x3 : Vec F S256x256 .f32) (x4 : Vec F S1x256 .f32)
    (f : arg6.view.ty.Contents (Elt F)) :
    arg6.view.read (Elt F) (arg6.view.writes (Elt F) f (runFirst c i arg1 harg1 arg2 harg2 arg3 harg3 arg4 harg4 arg5 harg5 arg6 harg6 hc0 x1 x2 x3 x4).2.1)
      = padded x2 := by
  rw [View.read_writes_eq_canon _ _ _ (coverFirst c i arg1 harg1 arg2 harg2 arg3 harg3 arg4 harg4 arg5 harg5 arg6 harg6 hc0 x1 x2 x3 x4)]
  unfold runFirst; dsimp only
  sl_unfold_words
  simp only [View.readAt_eq_ld, harg2.read_unread, View.ld_unit_zero (S := S4096x256) zero_offsets]
  rfl

set_option maxHeartbeats 1000000 in
/-- After the first point the output buffer holds the body's result of the four input buffers and the rows of the
    padded copy just built. -/
theorem runFirst_out (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : cond0 i) (x1 : Vec F S576x4096 .f32) (x2 : Vec F S4096x256 .f32) (x3 : Vec F S256x256 .f32) (x4 : Vec F S1x256 .f32)
    (f : arg5.view.ty.Contents (Elt F)) :
    arg5.view.read (Elt F) (arg5.view.writes (Elt F) f (runFirst c i arg1 harg1 arg2 harg2 arg3 harg3 arg4 harg4 arg5 harg5 arg6 harg6 hc0 x1 x2 x3 x4).1)
      = k0_pay3 x1 x2 (scratchRows i (padded x2)) x3 x4 := by
  unfold runFirst; dsimp only
  rw [View.read_writes_eq_canon _ _ _ (fun y => ⟨_, List.mem_singleton_self _, View.mem_set_unit_zero zero_offsets Facts₀.inb_S576x256_S576x256_0_0 y⟩),
    View.canon_unit_zero zero_offsets]
  rw [View.readAt_writes_junk_eq_canon]
  sl_unfold_words
  simp only [View.readAt_eq_ld, harg1.read_unread, harg2.read_unread, harg3.read_unread, harg4.read_unread,
    View.ld_unit_zero (S := S576x4096) zero_offsets, View.ld_unit_zero (S := S4096x256) zero_offsets,
    View.ld_unit_zero (S := S256x256) zero_offsets, View.ld_unit_zero (S := S1x256) zero_offsets]
  exact congrArg (fun v => k0_pay3 x1 x2 v x3 x4) rfl

end Cert.Kernel.Hand

end
-- ==== Proof.WordFrame.lean ====
/-
  The pipeline's proof data, the body obligation and the frame.

  After every point the scratch holds the padded copy of the second operand (built at point 0), which is the
  invariant carried from point to point. The first operand's blocks of 576 rows do not tile its 4096 rows: the last
  block has 64 rows inside the array, and past them the staging buffer holds words nothing names; the obligation
  therefore states the first window's buffer only on the rows inside the array. For the frame nothing of the output's
  contents is needed, so the output window is handed back at anything.
-/
import proofs.«107469_g10445360464162_week1_w2_143_17_alg».proof.Proof.WordRun
import proofs.«107469_g10445360464162_week1_w2_143_17_alg».proof.Proof.Gen.Kernel.Frame
import proofs.«107469_g10445360464162_week1_w2_143_17_alg».proof.Proof.Gen.Kernel.Skeleton
import Idealize.ShloMosaic.Lib.Pipeline.Value
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch operand as a whole memref. -/
abbrev scM : Memref sig .tc .vmem S4608x256 .f32 := Memref.whole cc0_scratch0

/-- The region's invariant when nothing is carried: the scratch at anything, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The rows of the first operand the pipeline stages at point `t` (576 rows, the last block's 64 rows inside the
    array), filled out past the array's end with the zero word: what the first window's buffer is said to hold on
    the rows inside the array. -/
def rowsBlock (c : Dev nD) (t : Fin cfg0.N) : Vec F S576x4096 .f32 :=
  win0_0.fill (grid0.coords t) (fun _ => Scalar.ofBits .f32 0#32) (iblk m c 0 t)

/-- What the scratch holds after every point: the padded copy of the second operand, built at the first point. -/
def carried (c : Dev nD) : Vec F S4608x256 .f32 := padded (iblk m c 1 t0_0)

/-- What the output window's buffer holds after point `t`: the body's result of that point's blocks and rows
    `[576 t, 576 t + 576)` of the padded copy. -/
def outBlock (c : Dev nD) (t : Fin cfg0.N) : Vec F S576x256 .f32 :=
  k0_pay3 (rowsBlock m c t) (iblk m c 1 t) (scratchRows (grid0.coords t) (carried m c)) (iblk m c 2 t) (iblk m c 3 t)

/-- The invariant before position `n`: before the first point the scratch holds anything; afterwards the padded copy. -/
def PhiS (c : Dev nD) : ℕ → sProp 𝕄
  | 0 => Pipeline.ΦA spec0 c
  | _ + 1 => iprop(iprop(owns (c : Thread nD τ) scM fullShare (carried m c)) ∗ (∃ r, prngReg c r))

theorem PhiS_pos (c : Dev nD) (n : ℕ) (hz : n ≠ 0) :
    PhiS m c n = iprop(iprop(owns (c : Thread nD τ) scM fullShare (carried m c)) ∗ (∃ r, prngReg c r)) := by
  cases n with
  | zero => exact absurd rfl hz
  | succ n => rfl

/-- The proof data of the one pipeline on core `c`: the arrays as the region finds them; after the body each input's
    buffer at its block (the first window's filled out with zeros past the array's end) and the output's at
    `outBlock`; the invariant carrying the padded copy; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => rowsBlock m c t
    | ⟨1, _⟩ => iblk m c 1 t
    | ⟨2, _⟩ => iblk m c 2 t
    | ⟨3, _⟩ => iblk m c 3 t
    | ⟨4, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = rowsBlock m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlock m c t := by dsimp only [dats]

/-- The first window is fetched at every point: its buffer holds the block on the rows inside the array and `d` past it. -/
theorem before_0 (c : Dev nD) (t : Fin cfg0.N) (d) :
    (dats m 0 c).before 0 t d = win0_0.fill (grid0.coords t) d (iblk m c 0 t) := by
  unfold Dat.before; rw [if_pos (fetch0_0 t)]; rfl
/-- The three whole operands are fetched once and found at their blocks at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- The output window is written back at every point: its buffer arrives holding anything. -/
theorem before_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-! ## The body at a point -/

/-- Each window's current staging memref at point `t`, and its wholeness, as the pipeline passes them. -/
abbrev ms0 (t : Fin cfg0.N) : Memref sig .tc .vmem S576x4096 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S4096x256 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S256x256 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x256 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S576x256 .f32 := win0_4.stage (cfg0.slots t 4)
abbrev hs4 (t : Fin cfg0.N) : (ms4 t).IsWhole := Facts₀.hstage0_4 ((cfg0.slots t 4).cast Facts₀.nbuf0_4)

/-- What the body computes at point `t` when the first window's buffer holds `x1` (its block filled out with
    anything past the array's end). -/
def outOf (c : Dev nD) (t : Fin cfg0.N) (x1 : Vec F S576x4096 .f32) : Vec F S576x256 .f32 :=
  k0_pay3 x1 (iblk m c 1 t) (scratchRows (grid0.coords t) (carried m c)) (iblk m c 2 t) (iblk m c 3 t)

set_option maxHeartbeats 1000000 in
/-- The body at any point, on the point's staging memrefs: from the invariant before the point, the four input
    buffers at their blocks (the first filled out with any `x1`-tail) and the output buffer at anything, it runs to
    the invariant after the point — the scratch at the padded copy —, the input buffers as they were, and the
    output buffer at `outOf`. At the first point the branch builds the padded copy; later it is found there. -/
theorem sound_point (c : Dev nD) (t : Fin cfg0.N) (x1 : Vec F S576x4096 .f32) (K : PUnit → sProp 𝕄) :
    iprop(PhiS m c t.val
        ∗ owns (c : Thread nD τ) (ms0 t) fullShare x1 ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ (∃ d, owns (c : Thread nD τ) (ms4 t) fullShare d)
        ∗ (iprop(PhiS m c (t.val + 1)
            ∗ owns (c : Thread nD τ) (ms0 t) fullShare x1 ∗ owns (c : Thread nD τ) (ms1 t) fullShare (iblk m c 1 t)
            ∗ owns (c : Thread nD τ) (ms2 t) fullShare (iblk m c 2 t) ∗ owns (c : Thread nD τ) (ms3 t) fullShare (iblk m c 3 t)
            ∗ owns (c : Thread nD τ) (ms4 t) fullShare (outOf m c t x1)) -∗ K ⟨⟩))
      ⊢ wp frame (wpE (defs₀ (F := F)) Variants.none c none) Set.univ (bodyAt0 t) K := by
  unfold bodyAt0 outOf
  by_cases hz : t.val = 0
  · have hc : cond0 (grid0.coords t) := (hcond0 t).mpr hz
    have ht : t = t0_0 := Fin.ext hz
    rw [show PhiS m c t.val = Pipeline.ΦA spec0 c from by rw [hz]; rfl, PhiA0_eq,
      show PhiS m c (t.val + 1) = iprop(iprop(owns (c : Thread nD τ) scM fullShare (carried m c)) ∗ (∃ r, prngReg c r)) from rfl]
    iintro ⟨⟨HS, Hg⟩, H0, H1, H2, H3, H4, Hk⟩
    iapply ((runFirst c (grid0.coords t) (ms0 t) (hs0 t) (ms1 t) (hs1 t) (ms2 t) (hs2 t) (ms3 t) (hs3 t) (ms4 t) (hs4 t) scM (Memref.isWhole_whole _) hc
      x1 (iblk m c 1 t) (iblk m c 2 t) (iblk m c 3 t)).2.2 Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%f5, H5⟩, ⟨%fs, HS⟩⟩
    iapply Hk
    isplitl [HS Hg]
    · isplitl [HS]
      · unfold owns; iexists _; isplitr
        swap; · iexact HS
        ipureintro
        rw [runFirst_scratch]; unfold carried; rw [ht]
      · iexact Hg
    isplitl [H0]; · iexact H0
    isplitl [H1]; · iexact H1
    isplitl [H2]; · iexact H2
    isplitl [H3]; · iexact H3
    unfold owns; iexists _; isplitr
    swap; · iexact H5
    ipureintro
    rw [runFirst_out]; unfold carried; rw [ht]
  · have hc : ¬cond0 (grid0.coords t) := fun h => hz ((hcond0 t).mp h)
    rw [PhiS_pos m c t.val hz,
      show PhiS m c (t.val + 1) = iprop(iprop(owns (c : Thread nD τ) scM fullShare (carried m c)) ∗ (∃ r, prngReg c r)) from rfl]
    iintro ⟨⟨HS, Hg⟩, H0, H1, H2, H3, H4, Hk⟩
    iapply ((runLater c (grid0.coords t) (ms0 t) (hs0 t) (ms1 t) (hs1 t) (ms2 t) (hs2 t) (ms3 t) (hs3 t) (ms4 t) (hs4 t) scM (Memref.isWhole_whole _) hc
      x1 (iblk m c 1 t) (iblk m c 2 t) (iblk m c 3 t) (carried m c)).2 Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%f5, H5⟩, HS⟩
    iapply Hk
    isplitl [HS Hg]
    · isplitl [HS]; · iexact HS
      iexact Hg
    isplitl [H0]; · iexact H0
    isplitl [H1]; · iexact H1
    isplitl [H2]; · iexact H2
    isplitl [H3]; · iexact H3
    unfold owns; iexists _; isplitr
    swap; · iexact H5
    ipureintro
    rw [runLater_out]

/-! ## The body obligation, the output window's contents forgotten -/

/-- The windows whose contents a frame does not read: the output's. -/
abbrev forgetOut : Fin 5 → Bool := fun | 0 => false | 1 => false | 2 => false | 3 => false | 4 => true | ⟨_ + 5, h⟩ => absurd h (Nat.not_lt.2 (Nat.le_add_left _ _))

/-- The library's body obligation at every point, the output window handed over and taken back at anything: the first
    window's buffer arrives holding its block filled out with whatever the clipped fetch left past the array's end,
    and is handed back so; the whole operands' buffers hold their blocks throughout. -/
theorem obligation_forget (c : Dev nD) :
    BodyObligationLoose (dats (F := F) m 0 c) (defs₀ (F := F)) Variants.none () Set.univ forgetOut := fun t => by
  rw [bigSep_W0, bigSep_W0]
  simp only
  rw [show (dats m 0 c).Φ t.succ = PhiS m c (t.val + 1) from rfl, Phi_castSucc,
    show (dats m 0 c).owesAt () t.succ = (dats m 0 c).owesAt () t.castSucc from rfl]
  iintro ⟨HΦ, Ho, ⟨%d0, H0⟩, ⟨%d1, H1⟩, ⟨%d2, H2⟩, ⟨%d3, H3⟩, H4⟩
  rw [before_0 m c t d0, before_1 m c t d1, before_2 m c t d2, before_3 m c t d3]
  iapply (sound_point m c t (win0_0.fill (grid0.coords t) d0 (iblk m c 0 t)) _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]
  · iexists d0
    rw [after_0]; unfold rowsBlock; rw [win0_0.cut_fill]
    iexact H0
  isplitl [H1]; · rw [after_1]; iexact H1
  isplitl [H2]; · rw [after_2]; iexact H2
  isplitl [H3]; · rw [after_3]; iexact H3
  iexists _; iexact H4

/-- Before the first point the scratch holds anything: the region's own invariant. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the padded copy is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨HS, Hg⟩
  isplitl [HS]
  · iexists _; iexact HS
  iexact Hg

/-! ## The run and the frame -/

set_option backward.isDefEq.respectTransparency.types false in
/-- Every weakly fair execution of @main terminates, faulting nowhere; each input array ends at what it held when the
    region was entered, the output array at some contents, every other unscoped buffer as it was. -/
theorem run_forget : θ_run defs (onTc (τ := τ) (main (F := F))) (s₀ m ρ)
    (Pipeline.RDat.FramePost cfg0 (fun c => (dats m 0 c).toRForget forgetOut) (V m)) :=
  Pipeline.RDat.θ_run_frame_track cfgs (0 : Fin 1) launch0 defs₀ Variants.none (fun c => (dats m 0 c).toRForget forgetOut) m ρ main
    (hbody := fun c => (obligation_forget m c).toRForget)
    (hshare := fun c => ((dats m 0 c).toRForget forgetOut).share_full fun _ => rfl)
    (howed := fun _ _ => rfl) (V := V m) (hmain := hmain m Variants.none)
    (hA := fun c w => A_eq m c w) (hin := hin m) (hout := hout m)

/-- The frame: the program runs to the end and its four argument arrays end unchanged (an input window's array is
    never written back; the bias vector is staged by no window). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    have e0 := (h c).1 0; have e1 := (h c).1 1; have e2 := (h c).1 2
    rw [Pipeline.RDat.ArrAt_in _ _ rfl] at e0 e1 e2
    exact ⟨e1.trans ((A_eq m c 1).trans (V_main_arg0 m c)), e0.trans ((A_eq m c 0).trans (V_main_arg1 m c)),
      e2.trans ((A_eq m c 2).trans (V_main_arg2 m c)),
      ((h c).2 main_arg3 (Pipeline.mem_restRefs_of main_arg3 (by decide) (by decide))).trans (V_main_arg3 m c)⟩) (run_forget m ρ)

end Cert.Kernel.Hand

end
-- ==== Proof.IdealRun.lean ====
/-
  The kernel body run once per case of its one branch.

  The body takes the branch exactly at grid point 0: there it copies the second operand (4096 rows of 256) into rows
  0..4095 of the 4608-row scratch and zeros rows 4096..4607, so that every later point can read "its" 576 rows of the
  operand from the scratch even where the last block overhangs the array. At every point it then forms
  (rows · operand2 + scratch rows) · operand3ᵀ + bias, applies the leaky rectifier, and stores the 576×256 result.
  Each case is run symbolically on arbitrary whole staging buffers; what the stores leave is then read back as a
  function: the output buffer holds the body's arithmetic of the buffers' contents, the scratch the padded copy.
-/
import proofs.«107469_g10445360464162_week1_w2_143_17_alg».proof.Proof.Gen.KernelIdeal.Frame
import proofs.«107469_g10445360464162_week1_w2_143_17_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch is taken exactly when the grid coordinate is zero: the condition as the kernel computes it. -/
abbrev cond0 (i : grid0.Coords) : Prop := (Scalar.cmpi .ne (Scalar.extui (Scalar.cmpi .eq (BitVec.ofNat 32 (i 0).val) 0#32)) 0#32) = 1#1

/-- Decided over the eight grid points: the branch is taken at point 0 only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at a point after the first: the branch is skipped, the padded copy in the scratch is read and left as it
    was, the four input buffers are left as they were, and the output buffer ends with the pieces the run finds. -/
noncomputable def runLater (c : Dev nD) (i : grid0.Coords)
    (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole)
    (hc0 : ¬cond0 i) (x1 : Vec F S576x4096 .f32) (x2 : Vec F S4096x256 .f32) (x3 : Vec F S256x256 .f32) (x4 : Vec F S1x256 .f32) (xs : Vec F S4608x256 .f32) :
    { L5 : List (View.Piece (Elt F) S576x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc0_body i arg1 harg1 arg2 harg2 arg3 harg3 arg4 harg4 arg5 harg5 arg6 harg6) K } := by
  refine ⟨?_, fun E K => ?run⟩
  case run =>
    simp only [cc0_body_eq_skeleton]; unfold cc0_body_skel
    unfold owns
    iintro ⟨⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf1; obtain rfl := harg2.eq_unread hf2; obtain rfl := harg3.eq_unread hf3
    obtain rfl := harg4.eq_unread hf4; obtain rfl := harg6.eq_unread hfs
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact HS

set_option maxHeartbeats 1000000 in
/-- The body at the first point: the branch is taken, the scratch (holding anything) is stored into twice, and both
    the scratch and the output buffer end with the pieces the run finds; the four input buffers are left as they were. -/
noncomputable def runFirst (c : Dev nD) (i : grid0.Coords)
    (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole)
    (hc0 : cond0 i) (x1 : Vec F S576x4096 .f32) (x2 : Vec F S4096x256 .f32) (x3 : Vec F S256x256 .f32) (x4 : Vec F S1x256 .f32) :
    Σ' (L5 : List (View.Piece (Elt F) S576x256 .f32)), { LS : List (View.Piece (Elt F) S4608x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0_body i arg1 harg1 arg2 harg2 arg3 harg3 arg4 harg4 arg5 harg5 arg6 harg6) K } := by
  refine ⟨?_, ?_, fun E K => ?run⟩
  case run =>
    simp only [cc0_body_eq_skeleton]; unfold cc0_body_skel
    unfold owns
    iintro ⟨⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf1; obtain rfl := harg2.eq_unread hf2; obtain rfl := harg3.eq_unread hf3
    obtain rfl := harg4.eq_unread hf4
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

/-! ## What the runs leave, as functions -/

theorem zero_offsets : (![0, 0] : Fin 2 → Nat) = fun _ => 0 := funext fun a => by fin_cases a <;> rfl

/-- The rows of the scratch the body adds at grid coordinate `i`: rows `[576 i, 576 i + 576)`. -/
def scratchRows (i : grid0.Coords) (S : Vec F S4608x256 .f32) : Vec F S576x256 .f32 :=
  View.ld S (Rect.unit (s := S4608x256) (k0_off1 i) S576x256.size (Facts₀.k0_off1_inb i))

/-- The padded copy the first point builds in the scratch: the 4096 rows of `e` followed by 512 rows of zeros
    (as the two stores leave it: the later store first). -/
def padded (e : Vec F S4096x256 .f32) : Vec F S4608x256 .f32 :=
  View.canon [(⟨Rect.unit (s := S4608x256) ![4096, 0] S512x256.size Facts₀.inb_S4608x256_S512x256_4096_0, k0_pay2 (F := F)⟩ : View.Piece (Elt F) S4608x256 .f32),
    ⟨Rect.unit (s := S4608x256) ![0, 0] S4096x256.size Facts₀.inb_S4608x256_S4096x256_0_0, k0_pay1 e⟩]

/-- After a later point the output buffer holds the body's result of the four input buffers and the scratch's rows. -/
theorem runLater_out (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : ¬cond0 i) (x1 : Vec F S576x4096 .f32) (x2 : Vec F S4096x256 .f32) (x3 : Vec F S256x256 .f32) (x4 : Vec F S1x256 .f32) (xs : Vec F S4608x256 .f32)
    (f : arg5.view.ty.Contents (Elt F)) :
    arg5.view.read (Elt F) (arg5.view.writes (Elt F) f (runLater c i arg1 harg1 arg2 harg2 arg3 harg3 arg4 harg4 arg5 harg5 arg6 harg6 hc0 x1 x2 x3 x4 xs).1)
      = k0_pay3 x1 x2 (scratchRows i xs) x3 x4 := by
  unfold runLater; dsimp only
  rw [View.read_writes_eq_canon _ _ _ (fun y => ⟨_, List.mem_singleton_self _, View.mem_set_unit_zero zero_offsets Facts₀.inb_S576x256_S576x256_0_0 y⟩),
    View.canon_unit_zero zero_offsets]
  simp only [View.readAt_eq_ld, harg1.read_unread, harg2.read_unread, harg3.read_unread, harg4.read_unread, harg6.read_unread,
    View.ld_unit_zero (S := S576x4096) zero_offsets, View.ld_unit_zero (S := S4096x256) zero_offsets,
    View.ld_unit_zero (S := S256x256) zero_offsets, View.ld_unit_zero (S := S1x256) zero_offsets]
  rfl

/-- The first point's two stores into the scratch cover it: 4096 rows and 512 rows, eight and one blocks of 512 rows. -/
theorem coverFirst (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : cond0 i) (x1 : Vec F S576x4096 .f32) (x2 : Vec F S4096x256 .f32) (x3 : Vec F S256x256 .f32) (x4 : Vec F S1x256 .f32) (y : S4608x256.Idx) :
    ∃ pc ∈ (runFirst c i arg1 harg1 arg2 harg2 arg3 harg3 arg4 harg4 arg5 harg5 arg6 harg6 hc0 x1 x2 x3 x4).2.1, y ∈ pc.1.set :=
  View.cover_of_tiledBy (runFirst c i arg1 harg1 arg2 harg2 arg3 harg3 arg4 harg4 arg5 harg5 arg6 harg6 hc0 x1 x2 x3 x4).2.1 S512x256.size (by sl_kernel_rfl) y

/-- After the first point the scratch holds the padded copy of the second input buffer. -/
theorem runFirst_scratch (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : cond0 i) (x1 : Vec F S576x4096 .f32) (x2 : Vec F S4096x256 .f32) (x3 : Vec F S256x256 .f32) (x4 : Vec F S1x256 .f32)
    (f : arg6.view.ty.Contents (Elt F)) :
    arg6.view.read (Elt F) (arg6.view.writes (Elt F) f (runFirst c i arg1 harg1 arg2 harg2 arg3 harg3 arg4 harg4 arg5 harg5 arg6 harg6 hc0 x1 x2 x3 x4).2.1)
      = padded x2 := by
  rw [View.read_writes_eq_canon _ _ _ (coverFirst c i arg1 harg1 arg2 harg2 arg3 harg3 arg4 harg4 arg5 harg5 arg6 harg6 hc0 x1 x2 x3 x4)]
  unfold runFirst; dsimp only
  sl_unfold_words
  simp only [View.readAt_eq_ld, harg2.read_unread, View.ld_unit_zero (S := S4096x256) zero_offsets]
  rfl

set_option maxHeartbeats 1000000 in
/-- After the first point the output buffer holds the body's result of the four input buffers and the rows of the
    padded copy just built. -/
theorem runFirst_out (c : Dev nD) (i : grid0.Coords) (arg1 : Memref sig .tc .vmem S576x4096 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S576x256 .f32) (harg5 : arg5.IsWhole) (arg6 : Memref sig .tc .vmem S4608x256 .f32) (harg6 : arg6.IsWhole) (hc0 : cond0 i) (x1 : Vec F S576x4096 .f32) (x2 : Vec F S4096x256 .f32) (x3 : Vec F S256x256 .f32) (x4 : Vec F S1x256 .f32)
    (f : arg5.view.ty.Contents (Elt F)) :
    arg5.view.read (Elt F) (arg5.view.writes (Elt F) f (runFirst c i arg1 harg1 arg2 harg2 arg3 harg3 arg4 harg4 arg5 harg5 arg6 harg6 hc0 x1 x2 x3 x4).1)
      = k0_pay3 x1 x2 (scratchRows i (padded x2)) x3 x4 := by
  unfold runFirst; dsimp only
  rw [View.read_writes_eq_canon _ _ _ (fun y => ⟨_, List.mem_singleton_self _, View.mem_set_unit_zero zero_offsets Facts₀.inb_S576x256_S576x256_0_0 y⟩),
    View.canon_unit_zero zero_offsets]
  rw [View.readAt_writes_junk_eq_canon]
  sl_unfold_words
  simp only [View.readAt_eq_ld, harg1.read_unread, harg2.read_unread, harg3.read_unread, harg4.read_unread,
    View.ld_unit_zero (S := S576x4096) zero_offsets, View.ld_unit_zero (S := S4096x256) zero_offsets,
    View.ld_unit_zero (S := S256x256) zero_offsets, View.ld_unit_zero (S := S1x256) zero_offsets]
  exact congrArg (fun v => k0_pay3 x1 x2 v x3 x4) rfl

end Cert.KernelIdeal.Hand

end
-- ==== Proof.IdealFrame.lean ====
/-
  The pipeline's proof data, the body obligation and the frame.

  After every point the scratch holds the padded copy of the second operand (built at point 0), which is the
  invariant carried from point to point. The first operand's blocks of 576 rows do not tile its 4096 rows: the last
  block has 64 rows inside the array, and past them the staging buffer holds words nothing names; the obligation
  therefore states the first window's buffer only on the rows inside the array. For the frame nothing of the output's
  contents is needed, so the output window is handed back at anything.
-/
import proofs.«107469_g10445360464162_week1_w2_143_17_alg».proof.Proof.IdealRun
import proofs.«107469_g10445360464162_week1_w2_143_17_alg».proof.Proof.Gen.KernelIdeal.Frame
import proofs.«107469_g10445360464162_week1_w2_143_17_alg».proof.Proof.Gen.KernelIdeal.Skeleton
import Idealize.ShloMosaic.Lib.Pipeline.Value
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch operand as a whole memref. -/
abbrev scM : Memref sig .tc .vmem S4608x256 .f32 := Memref.whole cc0_scratch0

/-- The region's invariant when nothing is carried: the scratch at anything, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The rows of the first operand the pipeline stages at point `t` (576 rows, the last block's 64 rows inside the
    array), filled out past the array's end with the zero word: what the first window's buffer is said to hold on
    the rows inside the array. -/
def rowsBlock (c : Dev nD) (t : Fin cfg0.N) : Vec F S576x4096 .f32 :=
  win0_0.fill (grid0.coords t) (fun _ => Scalar.ofBits .f32 0#32) (iblk m c 0 t)

/-- What the scratch holds after every point: the padded copy of the second operand, built at the first point. -/
def carried (c : Dev nD) : Vec F S4608x256 .f32 := padded (iblk m c 1 t0_0)

/-- What the output window's buffer holds after point `t`: the body's result of that point's blocks and rows
    `[576 t, 576 t + 576)` of the padded copy. -/
def outBlock (c : Dev nD) (t : Fin cfg0.N) : Vec F S576x256 .f32 :=
  k0_pay3 (rowsBlock m c t) (iblk m c 1 t) (scratchRows (grid0.coords t) (carried m c)) (iblk m c 2 t) (iblk m c 3 t)

/-- The invariant before position `n`: before the first point the scratch holds anything; afterwards the padded copy. -/
def PhiS (c : Dev nD) : ℕ → sProp 𝕄
  | 0 => Pipeline.ΦA spec0 c
  | _ + 1 => iprop(iprop(owns (c : Thread nD τ) scM fullShare (carried m c)) ∗ (∃ r, prngReg c r))

theorem PhiS_pos (c : Dev nD) (n : ℕ) (hz : n ≠ 0) :
    PhiS m c n = iprop(iprop(owns (c : Thread nD τ) scM fullShare (carried m c)) ∗ (∃ r, prngReg c r)) := by
  cases n with
  | zero => exact absurd rfl hz
  | succ n => rfl

/-- The proof data of the one pipeline on core `c`: the arrays as the region finds them; after the body each input's
    buffer at its block (the first window's filled out with zeros past the array's end) and the output's at
    `outBlock`; the invariant carrying the padded copy; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => rowsBlock m c t
    | ⟨1, _⟩ => iblk m c 1 t
    | ⟨2, _⟩ => iblk m c 2 t
    | ⟨3, _⟩ => iblk m c 3 t
    | ⟨4, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = rowsBlock m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlock m c t := by dsimp only [dats]

/-- The first window is fetched at every point: its buffer holds the block on the rows inside the array and `d` past it. -/
theorem before_0 (c : Dev nD) (t : Fin cfg0.N) (d) :
    (dats m 0 c).before 0 t d = win0_0.fill (grid0.coords t) d (iblk m c 0 t) := by
  unfold Dat.before; rw [if_pos (fetch0_0 t)]; rfl
/-- The three whole operands are fetched once and found at their blocks at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- The output window is written back at every point: its buffer arrives holding anything. -/
theorem before_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-! ## The body at a point -/

/-- Each window's current staging memref at point `t`, and its wholeness, as the pipeline passes them. -/
abbrev ms0 (t : Fin cfg0.N) : Memref sig .tc .vmem S576x4096 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S4096x256 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S256x256 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x256 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S576x256 .f32 := win0_4.stage (cfg0.slots t 4)
abbrev hs4 (t : Fin cfg0.N) : (ms4 t).IsWhole := Facts₀.hstage0_4 ((cfg0.slots t 4).cast Facts₀.nbuf0_4)

/-- What the body computes at point `t` when the first window's buffer holds `x1` (its block filled out with
    anything past the array's end). -/
def outOf (c : Dev nD) (t : Fin cfg0.N) (x1 : Vec F S576x4096 .f32) : Vec F S576x256 .f32 :=
  k0_pay3 x1 (iblk m c 1 t) (scratchRows (grid0.coords t) (carried m c)) (iblk m c 2 t) (iblk m c 3 t)

set_option maxHeartbeats 1000000 in
/-- The body at any point, on the point's staging memrefs: from the invariant before the point, the four input
    buffers at their blocks (the first filled out with any `x1`-tail) and the output buffer at anything, it runs to
    the invariant after the point — the scratch at the padded copy —, the input buffers as they were, and the
    output buffer at `outOf`. At the first point the branch builds the padded copy; later it is found there. -/
theorem sound_point (c : Dev nD) (t : Fin cfg0.N) (x1 : Vec F S576x4096 .f32) (K : PUnit → sProp 𝕄) :
    iprop(PhiS m c t.val
        ∗ owns (c : Thread nD τ) (ms0 t) fullShare x1 ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ (∃ d, owns (c : Thread nD τ) (ms4 t) fullShare d)
        ∗ (iprop(PhiS m c (t.val + 1)
            ∗ owns (c : Thread nD τ) (ms0 t) fullShare x1 ∗ owns (c : Thread nD τ) (ms1 t) fullShare (iblk m c 1 t)
            ∗ owns (c : Thread nD τ) (ms2 t) fullShare (iblk m c 2 t) ∗ owns (c : Thread nD τ) (ms3 t) fullShare (iblk m c 3 t)
            ∗ owns (c : Thread nD τ) (ms4 t) fullShare (outOf m c t x1)) -∗ K ⟨⟩))
      ⊢ wp frame (wpE (defs₀ (F := F)) Variants.none c none) Set.univ (bodyAt0 t) K := by
  unfold bodyAt0 outOf
  by_cases hz : t.val = 0
  · have hc : cond0 (grid0.coords t) := (hcond0 t).mpr hz
    have ht : t = t0_0 := Fin.ext hz
    rw [show PhiS m c t.val = Pipeline.ΦA spec0 c from by rw [hz]; rfl, PhiA0_eq,
      show PhiS m c (t.val + 1) = iprop(iprop(owns (c : Thread nD τ) scM fullShare (carried m c)) ∗ (∃ r, prngReg c r)) from rfl]
    iintro ⟨⟨HS, Hg⟩, H0, H1, H2, H3, H4, Hk⟩
    iapply ((runFirst c (grid0.coords t) (ms0 t) (hs0 t) (ms1 t) (hs1 t) (ms2 t) (hs2 t) (ms3 t) (hs3 t) (ms4 t) (hs4 t) scM (Memref.isWhole_whole _) hc
      x1 (iblk m c 1 t) (iblk m c 2 t) (iblk m c 3 t)).2.2 Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%f5, H5⟩, ⟨%fs, HS⟩⟩
    iapply Hk
    isplitl [HS Hg]
    · isplitl [HS]
      · unfold owns; iexists _; isplitr
        swap; · iexact HS
        ipureintro
        rw [runFirst_scratch]; unfold carried; rw [ht]
      · iexact Hg
    isplitl [H0]; · iexact H0
    isplitl [H1]; · iexact H1
    isplitl [H2]; · iexact H2
    isplitl [H3]; · iexact H3
    unfold owns; iexists _; isplitr
    swap; · iexact H5
    ipureintro
    rw [runFirst_out]; unfold carried; rw [ht]
  · have hc : ¬cond0 (grid0.coords t) := fun h => hz ((hcond0 t).mp h)
    rw [PhiS_pos m c t.val hz,
      show PhiS m c (t.val + 1) = iprop(iprop(owns (c : Thread nD τ) scM fullShare (carried m c)) ∗ (∃ r, prngReg c r)) from rfl]
    iintro ⟨⟨HS, Hg⟩, H0, H1, H2, H3, H4, Hk⟩
    iapply ((runLater c (grid0.coords t) (ms0 t) (hs0 t) (ms1 t) (hs1 t) (ms2 t) (hs2 t) (ms3 t) (hs3 t) (ms4 t) (hs4 t) scM (Memref.isWhole_whole _) hc
      x1 (iblk m c 1 t) (iblk m c 2 t) (iblk m c 3 t) (carried m c)).2 Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%f5, H5⟩, HS⟩
    iapply Hk
    isplitl [HS Hg]
    · isplitl [HS]; · iexact HS
      iexact Hg
    isplitl [H0]; · iexact H0
    isplitl [H1]; · iexact H1
    isplitl [H2]; · iexact H2
    isplitl [H3]; · iexact H3
    unfold owns; iexists _; isplitr
    swap; · iexact H5
    ipureintro
    rw [runLater_out]

/-! ## The body obligation, the output window's contents forgotten -/

/-- The windows whose contents a frame does not read: the output's. -/
abbrev forgetOut : Fin 5 → Bool := fun | 0 => false | 1 => false | 2 => false | 3 => false | 4 => true | ⟨_ + 5, h⟩ => absurd h (Nat.not_lt.2 (Nat.le_add_left _ _))

/-- The library's body obligation at every point, the output window handed over and taken back at anything: the first
    window's buffer arrives holding its block filled out with whatever the clipped fetch left past the array's end,
    and is handed back so; the whole operands' buffers hold their blocks throughout. -/
theorem obligation_forget (c : Dev nD) :
    BodyObligationLoose (dats (F := F) m 0 c) (defs₀ (F := F)) Variants.none () Set.univ forgetOut := fun t => by
  rw [bigSep_W0, bigSep_W0]
  simp only
  rw [show (dats m 0 c).Φ t.succ = PhiS m c (t.val + 1) from rfl, Phi_castSucc,
    show (dats m 0 c).owesAt () t.succ = (dats m 0 c).owesAt () t.castSucc from rfl]
  iintro ⟨HΦ, Ho, ⟨%d0, H0⟩, ⟨%d1, H1⟩, ⟨%d2, H2⟩, ⟨%d3, H3⟩, H4⟩
  rw [before_0 m c t d0, before_1 m c t d1, before_2 m c t d2, before_3 m c t d3]
  iapply (sound_point m c t (win0_0.fill (grid0.coords t) d0 (iblk m c 0 t)) _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]
  · iexists d0
    rw [after_0]; unfold rowsBlock; rw [win0_0.cut_fill]
    iexact H0
  isplitl [H1]; · rw [after_1]; iexact H1
  isplitl [H2]; · rw [after_2]; iexact H2
  isplitl [H3]; · rw [after_3]; iexact H3
  iexists _; iexact H4

/-- Before the first point the scratch holds anything: the region's own invariant. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the padded copy is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨HS, Hg⟩
  isplitl [HS]
  · iexists _; iexact HS
  iexact Hg

/-! ## The run and the frame -/

set_option backward.isDefEq.respectTransparency.types false in
/-- Every weakly fair execution of @main terminates, faulting nowhere; each input array ends at what it held when the
    region was entered, the output array at some contents, every other unscoped buffer as it was. -/
theorem run_forget : θ_run defs (onTc (τ := τ) (main (F := F))) (s₀ m ρ)
    (Pipeline.RDat.FramePost cfg0 (fun c => (dats m 0 c).toRForget forgetOut) (V m)) :=
  Pipeline.RDat.θ_run_frame_track cfgs (0 : Fin 1) launch0 defs₀ Variants.none (fun c => (dats m 0 c).toRForget forgetOut) m ρ main
    (hbody := fun c => (obligation_forget m c).toRForget)
    (hshare := fun c => ((dats m 0 c).toRForget forgetOut).share_full fun _ => rfl)
    (howed := fun _ _ => rfl) (V := V m) (hmain := hmain m Variants.none)
    (hA := fun c w => A_eq m c w) (hin := hin m) (hout := hout m)

/-- The frame: the program runs to the end and its four argument arrays end unchanged (an input window's array is
    never written back; the bias vector is staged by no window). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    have e0 := (h c).1 0; have e1 := (h c).1 1; have e2 := (h c).1 2
    rw [Pipeline.RDat.ArrAt_in _ _ rfl] at e0 e1 e2
    exact ⟨e1.trans ((A_eq m c 1).trans (V_main_arg0 m c)), e0.trans ((A_eq m c 0).trans (V_main_arg1 m c)),
      e2.trans ((A_eq m c 2).trans (V_main_arg2 m c)),
      ((h c).2 main_arg3 (Pipeline.mem_restRefs_of main_arg3 (by decide) (by decide))).trans (V_main_arg3 m c)⟩) (run_forget m ρ)

end Cert.KernelIdeal.Hand

end
-- ==== Proof.LayerSpec.lean ====
/-
  One graph-convolution layer on the extended reals, entry by entry.

  For node embeddings E (4096 × 256), an adjacency matrix A (4096 × 4096), weights W (256 × 256) and a bias b (256),
  the layer's entry (r, e) is

      leaky( Σ_j ( Σ_k A(r,k) · E(k,j) + E(r,j) ) · W(e,j) + b(e) ),

  where leaky(v) is v where v ≥ 0 and slope · v elsewhere, the slope being the f32 word of 0.01. An entry depends on
  A only through row r, and on the node's own embedding only through row r of E: `entry` takes those two rows.
-/
import Idealize.ShloMosaic.PureOps.Ideal
import Idealize.ShloMosaic.Lib.ValueIdx

noncomputable section

namespace Cert.GraphLayer

open Idealize.ShloMosaic Idealize.ShloMosaic.ValueIdx

/-- The leaky rectifier: `v` where `v ≥ 0`, the slope word times `v` elsewhere. -/
def leaky (v : EReal) : EReal :=
  Scalar.select (FloatOps.cmpf (F := Ideal) (φ := .f32) .oge v (Ideal.ofBits .f32 0x00000000#32)) v
    (Ideal.ofBits .f32 0x3C23D70A#32 * v)

/-- One entry of the layer, from the node's row `a` of the adjacency matrix and its own embedding `s`. -/
def entry (a : Fin 4096 → EReal) (s : Fin 256 → EReal) (E : (⟨2, ![4096, 256]⟩ : Shape).Idx → EReal)
    (W : (⟨2, ![256, 256]⟩ : Shape).Idx → EReal) (b : Fin 256 → EReal) (e : Fin 256) : EReal :=
  leaky ((∑ j : Fin 256, ((∑ k : Fin 4096, a k * E (ix2 k j)) + s j) * W (ix2 e j)) + b e)

/-- The layer: entry (r, e) from row r of A and row r of E. -/
def layer (E : (⟨2, ![4096, 256]⟩ : Shape).Idx → EReal) (A : (⟨2, ![4096, 4096]⟩ : Shape).Idx → EReal)
    (W : (⟨2, ![256, 256]⟩ : Shape).Idx → EReal) (b : (⟨1, ![256]⟩ : Shape).Idx → EReal) :
    (⟨2, ![4096, 256]⟩ : Shape).Idx → EReal :=
  fun i => entry (fun k => A (ix2 (i 0) k)) (fun j => E (ix2 (i 0) j)) E W (fun e => b (ix1 e)) (i 1)

theorem layer_apply (E : (⟨2, ![4096, 256]⟩ : Shape).Idx → EReal) (A : (⟨2, ![4096, 4096]⟩ : Shape).Idx → EReal)
    (W : (⟨2, ![256, 256]⟩ : Shape).Idx → EReal) (b : (⟨1, ![256]⟩ : Shape).Idx → EReal) (r : Fin 4096) (e : Fin 256) :
    layer E A W b (ix2 r e) = entry (fun k => A (ix2 r k)) (fun j => E (ix2 r j)) E W (fun e => b (ix1 e)) e := rfl

end Cert.GraphLayer

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.IdealPayload.lean ====
/-
  The kernel body's arithmetic at an index, on the extended reals.

  The body's one stored value is select(v ≥ 0, v, slope · v) of v = (x1 · x2 + x8) · x3ᵀ + bias, with x1 the 576 staged
  rows of the adjacency matrix, x2 the embeddings, x8 the 576 rows of the padded copy, x3 the weights (contracted along
  their LAST axis) and the bias a one-row matrix repeated along the rows. At (p, e) that is the layer's entry of row p
  of x1 and row p of x8: both matrix products are plain sums there, and nothing else couples the rows.
-/
import proofs.«107469_g10445360464162_week1_w2_143_17_alg».proof.Proof.Gen.KernelIdeal.Skeleton
import proofs.«107469_g10445360464162_week1_w2_143_17_alg».proof.Proof.LayerSpec
import proofs.«107469_g10445360464162_week1_w2_143_17_alg».proof.Proof.LibColsMatmul
import proofs.«107469_g10445360464162_week1_w2_143_17_alg».proof.Proof.LibRowOps
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx

/-- The value the rectifier is applied to: (x1 · x2 + x8) · x3ᵀ + bias. -/
def preAct (x1 : Vec Ideal S576x4096 .f32) (x2 : Vec Ideal S4096x256 .f32) (x8 : Vec Ideal S576x256 .f32)
    (x3 : Vec Ideal S256x256 .f32) (x4 : Vec Ideal S1x256 .f32) : FVec Ideal S576x256 .f32 :=
  addf (matmul (φ₁ := .f32) (φ₂ := .f32) dot_S576x256_S256x256_S576x256_1_1_0_0_n_n none
      (addf (matmul (φ₁ := .f32) (φ₂ := .f32) dot_S576x4096_S4096x256_S576x256_1_0_0_1_n_n none x1 x2 (constant S576x256 .f32 0x00000000#32)) x8) x3
      (constant S576x256 .f32 0x00000000#32))
    (broadcastTo S576x256 (shapeCast S1x256 x4 Facts₀.shapeCasts_S1x256_S1x256) Facts₀.broadcasts_S1x256_S576x256)

/-- The stored value is the rectifier of `preAct`, entry by entry. -/
theorem pay3_eq_leaky (x1 : Vec Ideal S576x4096 .f32) (x2 : Vec Ideal S4096x256 .f32) (x8 : Vec Ideal S576x256 .f32)
    (x3 : Vec Ideal S256x256 .f32) (x4 : Vec Ideal S1x256 .f32) (i : S576x256.Idx) :
    k0_pay3 (F := Ideal) x1 x2 x8 x3 x4 i = Cert.GraphLayer.leaky (preAct x1 x2 x8 x3 x4 i) := rfl

/-- `preAct` at (p, e): row p of x1 against the columns of x2, plus row p of x8, against row e of x3, plus the bias. -/
theorem preAct_apply (x1 : Vec Ideal S576x4096 .f32) (x2 : Vec Ideal S4096x256 .f32) (x8 : Vec Ideal S576x256 .f32)
    (x3 : Vec Ideal S256x256 .f32) (x4 : Vec Ideal S1x256 .f32) (p : Fin 576) (e : Fin 256) :
    preAct x1 x2 x8 x3 x4 (ix2 p e)
      = (∑ j : Fin 256, ((∑ k : Fin 4096, x1 (ix2 p k) * x2 (ix2 k j)) + x8 (ix2 p j)) * x3 (ix2 e j)) + x4 (ix2 (0 : Fin 1) e) := by
  unfold preAct
  rw [addf_apply]
  refine congrArg₂ (· + ·) ?_ ?_
  · refine (Cert.RowOps.matmul_rows_apply (wf := Facts₀.dot_S576x256_S256x256_S576x256_1_1_0_0_n_n_wf) none _ x3 p e).trans ?_
    refine Finset.sum_congr rfl fun j _ => ?_
    rw [addf_apply]
    refine congrArg (· * x3 (ix2 e j)) (congrArg (· + x8 (ix2 p j)) ?_)
    exact Cert.ColsMatmul.cols_matmul (wf := Facts₀.dot_S576x4096_S4096x256_S576x256_1_0_0_1_n_n_wf) _ rfl x1 x2 p j
  · rw [shapeCast_self]
    exact broadcastTo_1b_ab_apply x4 Facts₀.broadcasts_S1x256_S576x256 p e

/-- The stored value at (p, e) is the layer's entry of row p of x1 and row p of x8. -/
theorem pay3_apply (x1 : Vec Ideal S576x4096 .f32) (x2 : Vec Ideal S4096x256 .f32) (x8 : Vec Ideal S576x256 .f32)
    (x3 : Vec Ideal S256x256 .f32) (x4 : Vec Ideal S1x256 .f32) (p : Fin 576) (e : Fin 256) :
    k0_pay3 (F := Ideal) x1 x2 x8 x3 x4 (ix2 p e)
      = Cert.GraphLayer.entry (fun k => x1 (ix2 p k)) (fun j => x8 (ix2 p j)) x2 x3 (fun e => x4 (ix2 (0 : Fin 1) e)) e := by
  rw [pay3_eq_leaky, preAct_apply]; rfl

end Cert.KernelIdeal.Payload

end
-- ==== Proof.IdealValue.lean ====
/-
  What the idealized kernel's result array holds: the layer of the four argument arrays.

  At grid point t the output buffer's rows inside the array are rows 576 t … of the layer: the first window's buffer
  holds rows 576 t … of the adjacency matrix there (whatever fills it past the array's end at the last point), the
  padded copy's rows 576 t … are the embeddings' rows (all below 4096 inside the array), the three whole operands are
  the arrays themselves, and the body's arithmetic at an entry is the layer's entry. So the entries the pipeline writes
  back do not depend on what the clipped fetch left past the array's end, the obligation can be stated exactly, and
  the eight written blocks (seven of 576 rows and one of 64) cover the result.
-/
import proofs.«107469_g10445360464162_week1_w2_143_17_alg».proof.Proof.IdealFrame
import proofs.«107469_g10445360464162_week1_w2_143_17_alg».proof.Proof.IdealPayload
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The index maps over the grid, decided once -/

theorem index_rows : ∀ t : Fin cfg0.N, win0_0.index t 0 = t.val ∧ win0_0.index t 1 = 0 ∧ win0_4.index t 0 = t.val ∧ win0_4.index t 1 = 0 :=
  (by decide +kernel : ∀ t : Fin grid0.N, win0_0.index t 0 = t.val ∧ win0_0.index t 1 = 0 ∧ win0_4.index t 0 = t.val ∧ win0_4.index t 1 = 0)
theorem index_whole : ∀ t : Fin cfg0.N, win0_1.index t 0 = 0 ∧ win0_1.index t 1 = 0 ∧ win0_2.index t 0 = 0 ∧ win0_2.index t 1 = 0
    ∧ win0_3.index t 0 = 0 ∧ win0_3.index t 1 = 0 :=
  (by decide +kernel : ∀ t : Fin grid0.N, win0_1.index t 0 = 0 ∧ win0_1.index t 1 = 0 ∧ win0_2.index t 0 = 0 ∧ win0_2.index t 1 = 0
    ∧ win0_3.index t 0 = 0 ∧ win0_3.index t 1 = 0)
/-- The rows of a block inside the array: 576 at the first seven points, 64 at the last. -/
theorem inside_rows : ∀ t : Fin cfg0.N, win0_0.xsize (grid0.coords t) 0 = min 576 (4096 - 576 * t.val) ∧ win0_0.xsize (grid0.coords t) 1 = 4096
    ∧ win0_4.xsize (grid0.coords t) 0 = min 576 (4096 - 576 * t.val) ∧ win0_4.xsize (grid0.coords t) 1 = 256 :=
  (by decide +kernel : ∀ t : Fin grid0.N, win0_0.xsize (grid0.coords t) 0 = min 576 (4096 - 576 * t.val) ∧ win0_0.xsize (grid0.coords t) 1 = 4096
    ∧ win0_4.xsize (grid0.coords t) 0 = min 576 (4096 - 576 * t.val) ∧ win0_4.xsize (grid0.coords t) 1 = 256)
/-- The scratch rows a point reads start at row 576 t. -/
theorem scratch_offset : ∀ t : Fin cfg0.N, k0_off1 (grid0.coords t) 0 = 576 * t.val ∧ k0_off1 (grid0.coords t) 1 = 0 :=
  (by decide +kernel : ∀ t : Fin grid0.N, k0_off1 (grid0.coords t) 0 = 576 * t.val ∧ k0_off1 (grid0.coords t) 1 = 0)

/-! ## The blocks read at an index -/

/-- The first window's buffer at (p, k), on a row inside the array: the adjacency matrix at (576 t + p, k), whatever
    fills the buffer past the array's end. -/
theorem rows_apply (c : Dev nD) (t : Fin cfg0.N) (d : S576x4096.Idx → Elt Ideal .f32) (p : Fin 576) (k : Fin 4096)
    (hp : 576 * t.val + p.val < 4096) :
    win0_0.fill (grid0.coords t) d (iblk m c 0 t) (ix2 p k) = m ((c : Thread nD τ).loc main_arg1) (ix2 ⟨576 * t.val + p.val, hp⟩ k) := by
  have hi := index_rows t; have hx := inside_rows t
  have hm : win0_0.moved (grid0.coords t) (ix2 p k) = true := (win0_0.moved_iff _ _).mpr fun a => by
    match a with
    | ⟨0, _⟩ => show p.val < win0_0.xsize (grid0.coords t) 0; rw [hx.1]; have := p.isLt; omega
    | ⟨1, _⟩ => show k.val < win0_0.xsize (grid0.coords t) 1; rw [hx.2.1]; exact k.isLt
  unfold Window.fill; rw [dif_pos hm]
  unfold iblk; rw [View.read_apply, V_main_arg1]
  show m ((c : Thread nD τ).loc main_arg1) (((cfg0.win 0).blk t).view.emb _) = _
  refine congrArg _ (funext fun a => Fin.ext ?_)
  match a with
  | ⟨0, _⟩ => show win0_0.index t 0 * 576 + 1 * p.val = 576 * t.val + p.val; rw [hi.1]; omega
  | ⟨1, _⟩ => show win0_0.index t 1 * 4096 + 1 * k.val = k.val; rw [hi.2.1]; omega

/-- The padded copy on a row below 4096 is the copied matrix's row. -/
theorem padded_apply (e : Vec Ideal S4096x256 .f32) (r : Fin 4608) (j : Fin 256) (hr : r.val < 4096) :
    padded e (ix2 r j) = e (ix2 ⟨r.val, hr⟩ j) := by
  unfold padded
  rw [View.canon_cons_of_not_mem _ _ (by
    rw [Rect.mem_set_unit]; intro h
    have h0 := (h 0).1
    change 4096 ≤ r.val at h0; omega)]
  have hy : (ix2 r j : S4608x256.Idx)
      = (Rect.unit (s := S4608x256) ![0, 0] S4096x256.size Facts₀.inb_S4608x256_S4096x256_0_0).emb (ix2 ⟨r.val, hr⟩ j) :=
    funext fun a => Fin.ext (by
      match a with
      | ⟨0, _⟩ => show r.val = 0 + 1 * r.val; omega
      | ⟨1, _⟩ => show j.val = 0 + 1 * j.val; omega)
  rw [hy, View.canon_cons_emb]
  unfold k0_pay1; rw [shapeCast_self]

/-- The rows of the padded copy a point adds, on a row inside the array: the copied matrix's row 576 t + p. -/
theorem scratchRows_apply (t : Fin cfg0.N) (e : Vec Ideal S4096x256 .f32) (p : Fin 576) (j : Fin 256) (hp : 576 * t.val + p.val < 4096) :
    scratchRows (grid0.coords t) (padded e) (ix2 p j) = e (ix2 ⟨576 * t.val + p.val, hp⟩ j) := by
  have ho := scratch_offset t
  unfold scratchRows
  show padded e ((Rect.unit (s := S4608x256) (k0_off1 (grid0.coords t)) S576x256.size (Facts₀.k0_off1_inb (grid0.coords t))).emb (ix2 p j)) = _
  have hi : (Rect.unit (s := S4608x256) (k0_off1 (grid0.coords t)) S576x256.size (Facts₀.k0_off1_inb (grid0.coords t))).emb (ix2 p j)
      = ix2 (⟨576 * t.val + p.val, by omega⟩ : Fin 4608) j := funext fun a => Fin.ext (by
    match a with
    | ⟨0, _⟩ => show k0_off1 (grid0.coords t) 0 + 1 * p.val = 576 * t.val + p.val; rw [ho.1]; omega
    | ⟨1, _⟩ => show k0_off1 (grid0.coords t) 1 + 1 * j.val = j.val; rw [ho.2]; omega)
  rw [hi, padded_apply e _ j hp]

/-- The three whole operands' blocks are their arrays. -/
theorem block_embeddings (c : Dev nD) (t : Fin cfg0.N) :
    (iblk m c 1 t : S4096x256.Idx → Elt Ideal .f32) = m ((c : Thread nD τ).loc main_arg0) := by
  have hi := index_whole t
  funext y
  unfold iblk; rw [View.read_apply, V_main_arg0]
  show m ((c : Thread nD τ).loc main_arg0) (((cfg0.win 1).blk t).view.emb y) = _
  refine congrArg _ (funext fun a => Fin.ext ?_)
  match a with
  | ⟨0, _⟩ => show win0_1.index t 0 * 4096 + 1 * (y 0).val = (y 0).val; rw [hi.1]; omega
  | ⟨1, _⟩ => show win0_1.index t 1 * 256 + 1 * (y 1).val = (y 1).val; rw [hi.2.1]; omega
theorem block_weights (c : Dev nD) (t : Fin cfg0.N) :
    (iblk m c 2 t : S256x256.Idx → Elt Ideal .f32) = m ((c : Thread nD τ).loc main_arg2) := by
  have hi := index_whole t
  funext y
  unfold iblk; rw [View.read_apply, V_main_arg2]
  show m ((c : Thread nD τ).loc main_arg2) (((cfg0.win 2).blk t).view.emb y) = _
  refine congrArg _ (funext fun a => Fin.ext ?_)
  match a with
  | ⟨0, _⟩ => show win0_2.index t 0 * 256 + 1 * (y 0).val = (y 0).val; rw [hi.2.2.1]; omega
  | ⟨1, _⟩ => show win0_2.index t 1 * 256 + 1 * (y 1).val = (y 1).val; rw [hi.2.2.2.1]; omega
/-- The bias the region finds is the bias vector laid out as one row. -/
theorem bias_row (c : Dev nD) : (V m c main_call0_v0 : S1x256.Idx → Elt Ideal .f32)
    = shapeCast S1x256 (m ((c : Thread nD τ).loc main_arg3)) Facts₀.shapeCasts_S256_S1x256 := by
  dsimp only [V, hostOps0]; after_results; rfl
theorem block_bias (c : Dev nD) (t : Fin cfg0.N) (e : Fin 256) :
    (iblk m c 3 t : S1x256.Idx → Elt Ideal .f32) (ix2 (0 : Fin 1) e) = m ((c : Thread nD τ).loc main_arg3) (ix1 e) := by
  have hi := index_whole t
  unfold iblk; rw [View.read_apply]
  show V m c main_call0_v0 (((cfg0.win 3).blk t).view.emb (ix2 (0 : Fin 1) e)) = _
  have he : ((cfg0.win 3).blk t).view.emb (ix2 (0 : Fin 1) e) = (ix2 (0 : Fin 1) e : S1x256.Idx) := funext fun a => Fin.ext (by
    match a with
    | ⟨0, _⟩ => show win0_3.index t 0 * 1 + 1 * 0 = 0; rw [hi.2.2.2.2.1]
    | ⟨1, _⟩ => show win0_3.index t 1 * 256 + 1 * e.val = e.val; rw [hi.2.2.2.2.2]; omega)
  rw [he, bias_row]
  exact shapeCast_a_1a_apply _ Facts₀.shapeCasts_S256_S1x256 (0 : Fin 1) e

/-! ## What a point writes back -/

/-- The layer of the four argument arrays, as contents of the result array. -/
def result (c : Dev nD) : Buf (Elt Ideal) ((c : Thread nD τ).loc main_v0) :=
  Cert.GraphLayer.layer (m ((c : Thread nD τ).loc main_arg0)) (m ((c : Thread nD τ).loc main_arg1))
    (m ((c : Thread nD τ).loc main_arg2)) (m ((c : Thread nD τ).loc main_arg3))

/-- The body's result at (p, e) on a row inside the array is the layer's entry (576 t + p, e), whatever fills the
    first window's buffer past the array's end. -/
theorem outOf_apply (c : Dev nD) (t : Fin cfg0.N) (d : S576x4096.Idx → Elt Ideal .f32) (p : Fin 576) (e : Fin 256)
    (hp : 576 * t.val + p.val < 4096) :
    outOf m c t (win0_0.fill (grid0.coords t) d (iblk m c 0 t)) (ix2 p e) = result m c (ix2 ⟨576 * t.val + p.val, hp⟩ e) := by
  unfold outOf result
  rw [Cert.KernelIdeal.Payload.pay3_apply, Cert.GraphLayer.layer_apply]
  have h1 : (fun k => win0_0.fill (grid0.coords t) d (iblk m c 0 t) (ix2 p k))
      = fun k => m ((c : Thread nD τ).loc main_arg1) (ix2 ⟨576 * t.val + p.val, hp⟩ k) := funext fun k => rows_apply m c t d p k hp
  have h2 : (fun j => scratchRows (grid0.coords t) (carried m c) (ix2 p j))
      = fun j => m ((c : Thread nD τ).loc main_arg0) (ix2 ⟨576 * t.val + p.val, hp⟩ j) := funext fun j => by
    unfold carried; rw [scratchRows_apply t _ p j hp, block_embeddings]
  have h3 : (fun e => (iblk m c 3 t : S1x256.Idx → Elt Ideal .f32) (ix2 (0 : Fin 1) e))
      = fun e => m ((c : Thread nD τ).loc main_arg3) (ix1 e) := funext fun e => block_bias m c t e
  rw [h1, h2, h3, block_embeddings, block_weights]

/-- What point `t` writes back — the output buffer's rows inside the array — is the layer's block there. -/
theorem written_block (c : Dev nD) (t : Fin cfg0.N) (d : S576x4096.Idx → Elt Ideal .f32) :
    win0_4.cut (grid0.coords t) (outOf m c t (win0_0.fill (grid0.coords t) d (iblk m c 0 t)))
      = (win0_4.blk t).view.read (Elt Ideal) (result m c) := by
  have hi := index_rows t; have hx := inside_rows t
  funext j
  have hj0 : (j 0).val < win0_4.xsize (grid0.coords t) 0 := (j 0).isLt
  have hj1 : (j 1).val < win0_4.xsize (grid0.coords t) 1 := (j 1).isLt
  rw [hx.2.2.1] at hj0; rw [hx.2.2.2] at hj1
  have hp' : (j 0).val < 576 := by omega
  have hp : 576 * t.val + (j 0).val < 4096 := by omega
  rw [View.read_apply]
  show outOf m c t _ (win0_4.xinj (grid0.coords t) j) = result m c ((win0_4.blk t).view.emb j)
  have hxj : win0_4.xinj (grid0.coords t) j = (ix2 (⟨(j 0).val, hp'⟩ : Fin 576) (⟨(j 1).val, hj1⟩ : Fin 256) : S576x256.Idx) :=
    funext fun a => Fin.ext (by match a with | ⟨0, _⟩ => rfl | ⟨1, _⟩ => rfl)
  have hy : (win0_4.blk t).view.emb j = (ix2 (⟨576 * t.val + (j 0).val, hp⟩ : Fin 4096) (⟨(j 1).val, hj1⟩ : Fin 256) : S4096x256.Idx) :=
    funext fun a => Fin.ext (by
      match a with
      | ⟨0, _⟩ => show win0_4.index t 0 * 576 + 1 * (j 0).val = 576 * t.val + (j 0).val; rw [hi.2.2.1]; omega
      | ⟨1, _⟩ => show win0_4.index t 1 * 256 + 1 * (j 1).val = (j 1).val; rw [hi.2.2.2]; omega)
  rw [hxj, hy]
  exact outOf_apply m c t d _ _ hp

/-! ## The exact body obligation -/

/-- The named contents of the output buffer are the body's result with the first window's buffer filled out with zeros. -/
theorem outBlock_eq (c : Dev nD) (t : Fin cfg0.N) :
    outBlock m c t = outOf m c t (win0_0.fill (grid0.coords t) (fun _ => Scalar.ofBits (F := Ideal) .f32 0#32) (iblk m c 0 t)) := by
  unfold outBlock outOf rowsBlock; rfl

/-- The rows a point writes back are the same whatever the clipped fetch left past the array's end. -/
theorem written_alike (c : Dev nD) (t : Fin cfg0.N) (d : S576x4096.Idx → Elt Ideal .f32) :
    win0_4.cut (grid0.coords t) (outOf m c t (win0_0.fill (grid0.coords t) d (iblk m c 0 t)))
      = win0_4.cut (grid0.coords t) (outBlock m c t) := by
  rw [outBlock_eq, written_block m c t d, written_block m c t _]

set_option maxHeartbeats 1600000 in
/-- The library's body obligation at every point, every window's contents named: as for the frame, and the output
    buffer's rows inside the array are the layer's block whatever the clipped fetch left past the array's end
    (`written_block`, twice). -/
theorem obligation_exact (c : Dev nD) :
    BodyObligationLoose (dats (F := Ideal) m 0 c) (defs₀ (F := Ideal)) Variants.none () Set.univ := fun t => by
  rw [bigSep_W0, bigSep_W0]
  simp only
  rw [show (dats m 0 c).Φ t.succ = PhiS m c (t.val + 1) from rfl, Phi_castSucc,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_point m c t (win0_0.fill (grid0.coords t) d0 (iblk m c 0 t)) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [Ho]; · iexact Ho
  isplitl [H0]
  · iexists d0
    rw [after_0]; unfold rowsBlock; rw [win0_0.cut_fill]
    iexact H0
  isplitl [H1]; · rw [after_1]; iexact H1
  isplitl [H2]; · rw [after_2]; iexact H2
  isplitl [H3]; · rw [after_3]; iexact H3
  iexists (outOf m c t (win0_0.fill (grid0.coords t) d0 (iblk m c 0 t)))
  rw [after_4, win0_4.fill_congr_cut (grid0.coords t) (written_alike m c t d0)]
  iexact H4

/-! ## The run, and the result array -/

set_option backward.isDefEq.respectTransparency.types false in
/-- Every weakly fair execution of @main terminates, faulting nowhere, with every array of the pipeline at what the
    library computes from the proof data and every other unscoped buffer as it was. -/
theorem run_exact : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => obligation_exact m c) (hshare := fun c => (dats m 0 c).share_full fun _ => rfl)
    (howed := fun _ _ => rfl) (V := V m) (hmain := hmain m Variants.none) (hA := fun c w => A_eq m c w)
    (hin := hin m) (hout := hout m)

/-- An index of the result array is in point `t`'s written block iff its row is among the block's rows inside the array. -/
theorem mem_written (t : Fin cfg0.N) (i : S4096x256.Idx) :
    i ∈ (win0_4.blk t).view.set ↔ 576 * t.val ≤ (i 0).val ∧ (i 0).val < 576 * t.val + min 576 (4096 - 576 * t.val) := by
  have hi := index_rows t; have hx := inside_rows t
  show i ∈ ((View.whole main_v0).slice (win0_4.rect t)).set ↔ _
  rw [View.set_slice_whole, Rect.mem_set_unit]
  have h1 : (i 1 : Nat) < 256 := (i 1).isLt
  refine ⟨fun h => ?_, fun h a => ?_⟩
  · have h0 := h 0
    change win0_4.index t 0 * 576 ≤ (i 0 : Nat) ∧ (i 0 : Nat) < win0_4.index t 0 * 576 + win0_4.xsize (grid0.coords t) 0 at h0
    rw [hi.2.2.1, hx.2.2.1] at h0; omega
  · match a with
    | ⟨0, _⟩ =>
      change win0_4.index t 0 * 576 ≤ (i 0 : Nat) ∧ (i 0 : Nat) < win0_4.index t 0 * 576 + win0_4.xsize (grid0.coords t) 0
      rw [hi.2.2.1, hx.2.2.1]; omega
    | ⟨1, _⟩ =>
      change win0_4.index t 1 * 256 ≤ (i 1 : Nat) ∧ (i 1 : Nat) < win0_4.index t 1 * 256 + win0_4.xsize (grid0.coords t) 1
      rw [hi.2.2.2, hx.2.2.2]; omega

/-- Row r of the result is written at point r / 576: the eight blocks cover the 4096 rows. -/
theorem covered (i : S4096x256.Idx) : ∃ t : Fin cfg0.N, (cfg0.win 4).flush t = true ∧ i ∈ ((cfg0.win 4).blk t).view.set := by
  have h4096 : (i 0).val < 4096 := (i 0).isLt
  have hN : cfg0.N = 8 := N_0
  have ht : (i 0).val / 576 < cfg0.N := by rw [hN]; omega
  refine ⟨⟨(i 0).val / 576, ht⟩, flush0_4 _, ?_⟩
  exact (mem_written ⟨(i 0).val / 576, ht⟩ i).mpr (by dsimp only; omega)

/-- The result array after the run is the layer of the argument arrays. -/
theorem result_array (c : Dev nD) : (dats m 0 c).arrAt 4 cfg0.N = result m c :=
  (dats m 0 c).arrAt_eq_of_cover 4 (result m c) (fun t _ => by
    show win0_4.cut (grid0.coords t) ((dats m 0 c).after 4 t) = _
    rw [after_4, outBlock_eq]; exact written_block m c t _) covered

/-- The idealized kernel's run: it terminates, faulting nowhere, with the result array at the layer of the argument
    arrays and the argument arrays unchanged. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (result_array m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩) (run_exact m ρ)

end Cert.KernelIdeal.Hand

end
-- ==== Proof.RefValue.lean ====
/-
  The reference computes the layer.

  Its operations, read one at a time at an index (r, e): A · E at (r, j) is Σ_k A(r,k) · E(k,j); E + A · E adds the
  node's own row; the product with the TRANSPOSED weights at (r, e) is Σ_j (…)(r,j) · W(e,j); the bias, laid along the
  rows, is b(e); and the rectifier is the same select of the same two words. The one difference from the kernel's
  order is E + A·E against A·E + E: addition of extended reals commutes.
-/
import proofs.«107469_g10445360464162_week1_w2_143_17_alg».proof.Proof.Gen.ReferenceIdeal.Run
import proofs.«107469_g10445360464162_week1_w2_143_17_alg».proof.Proof.Gen.ReferenceIdeal.Read
import proofs.«107469_g10445360464162_week1_w2_143_17_alg».proof.Proof.LayerSpec

noncomputable section

namespace Cert.ReferenceIdeal.RefValue

open Cert.ReferenceIdeal Cert.ReferenceIdeal.Read
open Idealize.ShloMosaic Idealize.ShloMosaic.ValueIdx

/-- The reference's result is the layer of its four arguments. -/
theorem ref_eq_layer (x0 : (⟨S4096x256, .f32⟩ : BufTy).Contents (Elt Ideal)) (x1 : (⟨S4096x4096, .f32⟩ : BufTy).Contents (Elt Ideal))
    (x2 : (⟨S256x256, .f32⟩ : BufTy).Contents (Elt Ideal)) (x3 : (⟨S256, .f32⟩ : BufTy).Contents (Elt Ideal)) :
    val_main_v11 (F := Ideal) x0 x1 x2 x3 = Cert.GraphLayer.layer x0 x1 x2 x3 := by
  funext i
  obtain ⟨r, e, rfl⟩ : ∃ (r : Fin 4096) (e : Fin 256), i = ix2 r e := ⟨i 0, i 1, eq_ix2 i⟩
  have e6 : val_main_v6 (F := Ideal) x0 x1 x2 x3 (ix2 r e)
      = (∑ j : Fin 256, ((∑ k : Fin 4096, x1 (ix2 r k) * x0 (ix2 k j)) + x0 (ix2 r j)) * x2 (ix2 e j)) + x3 (ix1 e) := by
    rw [val_main_v6_apply, val_main_v3_apply, val_main_v5_apply, val_main_v4_apply]
    refine congrArg₂ (· + ·) (Finset.sum_congr rfl fun j _ => ?_) (congrArg x3 (funext fun a => Fin.ext (by match a with | ⟨0, _⟩ => rfl)))
    rw [val_main_v1_apply, val_main_v0_apply, val_main_v2_apply]
    have i1 : lidx_main_v3 (ix2 r e) j = ix2 r j := funext fun a => Fin.ext (by match a with | ⟨0, _⟩ => rfl | ⟨1, _⟩ => rfl)
    have i2 : idx_main_v2 (ridx_main_v3 (ix2 r e) j) = ix2 e j := funext fun a => Fin.ext (by match a with | ⟨0, _⟩ => rfl | ⟨1, _⟩ => rfl)
    rw [i1, i2]
    refine congrArg (· * x2 (ix2 e j)) ?_
    refine (add_comm _ _).trans (congrArg (· + x0 (ix2 r j)) (Finset.sum_congr rfl fun k _ => ?_))
    have i3 : lidx_main_v0 (ix2 r j) k = ix2 r k := funext fun a => Fin.ext (by match a with | ⟨0, _⟩ => rfl | ⟨1, _⟩ => rfl)
    have i4 : ridx_main_v0 (ix2 r j) k = ix2 k j := funext fun a => Fin.ext (by match a with | ⟨0, _⟩ => rfl | ⟨1, _⟩ => rfl)
    rw [i3, i4]
  rw [val_main_v11_apply, val_main_v8_apply, val_main_v10_apply, val_main_v7_apply, val_main_v9_apply, val_main_cst_apply,
    val_main_cst_0_apply, e6, Cert.GraphLayer.layer_apply]
  rfl

end Cert.ReferenceIdeal.RefValue

end
-- ==== Proof.lean ====
/-
  The certificate: a Pallas kernel for one graph-convolution layer, out = leaky((A · E + E) · Wᵀ + b), against its jnp
  reference leaky((E + A · E) · Wᵀ + b), for E : 4096 × 256, A : 4096 × 4096, W : 256 × 256, b : 256.

  The kernel walks A in blocks of 576 rows over eight grid points (the last block has 64 rows inside the array), keeps
  E, W and b resident, and at the first point builds a zero-padded copy of E in a scratch from which every point takes
  "its" 576 rows. Both frames — the word-level program's and the idealized one's — are the same argument at two
  instances: the body run once per case of its branch, the padded copy carried as the invariant. On the extended reals
  the kernel's result array is the layer of the arguments, block by block, and the reference's composed operations
  are the same layer; the two differ only in the order of one addition, which commutes. No entry needs the inputs
  to be finite.
-/
import proofs.«107469_g10445360464162_week1_w2_143_17_alg».proof.Defs
import proofs.«107469_g10445360464162_week1_w2_143_17_alg».proof.Proof.Gen.Kernel
import proofs.«107469_g10445360464162_week1_w2_143_17_alg».proof.Proof.Gen.KernelIdeal
import proofs.«107469_g10445360464162_week1_w2_143_17_alg».proof.Proof.Gen.ReferenceIdeal
import proofs.«107469_g10445360464162_week1_w2_143_17_alg».proof.Proof.Gen.Pre_finite_inputs
import proofs.«107469_g10445360464162_week1_w2_143_17_alg».proof.Proof.WordFrame
import proofs.«107469_g10445360464162_week1_w2_143_17_alg».proof.Proof.IdealValue
import proofs.«107469_g10445360464162_week1_w2_143_17_alg».proof.Proof.RefValue
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the layer of the arguments as result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_layer,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
